-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S8192x8192 .f32) (main_arg3 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 41
  | .vmem => 25
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S8192x1, .f32⟩
  | .hbm, ⟨5, _⟩ => ⟨S1x8192, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8_0 : Ref sig .tc := ⟨.hbm, 12, rfl⟩
abbrev main_call0_v8_1 : Ref sig .tc := ⟨.hbm, 13, rfl⟩
abbrev main_call0_v8_2 : Ref sig .tc := ⟨.hbm, 14, rfl⟩
abbrev main_v0_1 : Ref sig .tc := ⟨.hbm, 15, rfl⟩
abbrev main_call0_cst : Ref sig .tc := ⟨.hbm, 16, rfl⟩
abbrev main_call0_v10 : Ref sig .tc := ⟨.hbm, 17, rfl⟩
abbrev main_call0_cst_0 : Ref sig .tc := ⟨.hbm, 18, rfl⟩
abbrev main_call0_v11 : Ref sig .tc := ⟨.hbm, 19, rfl⟩
abbrev main_call0_cst_1 : Ref sig .tc := ⟨.hbm, 20, rfl⟩
abbrev main_call0_v12 : Ref sig .tc := ⟨.hbm, 21, rfl⟩
abbrev main_call0_cst_2 : Ref sig .tc := ⟨.hbm, 22, rfl⟩
abbrev main_call0_v13 : Ref sig .tc := ⟨.hbm, 23, rfl⟩
abbrev main_call0_cst_3 : Ref sig .tc := ⟨.hbm, 24, rfl⟩
abbrev main_call0_v14 : Ref sig .tc := ⟨.hbm, 25, rfl⟩
abbrev main_call0_cst_4 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_v0_0 : Ref sig .tc := ⟨.hbm, 31, rfl⟩
abbrev main_call0_cst_5 : Ref sig .tc := ⟨.hbm, 32, rfl⟩
abbrev main_call0_v20 : Ref sig .tc := ⟨.hbm, 33, rfl⟩
abbrev main_call0_v21 : Ref sig .tc := ⟨.hbm, 34, rfl⟩
abbrev main_call0_cst_6 : Ref sig .tc := ⟨.hbm, 35, rfl⟩
abbrev main_call0_v22 : Ref sig .tc := ⟨.hbm, 36, rfl⟩
abbrev main_call0_v23 : Ref sig .tc := ⟨.hbm, 37, rfl⟩
abbrev main_call0_cst_7 : Ref sig .tc := ⟨.hbm, 38, rfl⟩
abbrev main_call0_v24 : Ref sig .tc := ⟨.hbm, 39, rfl⟩
abbrev main_v0_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_30 : BitVec 32 := 0#32
  let v55 : BitVec 1 := Scalar.cmpi .ne v54 c0_i32_30
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S8192_S8192x1 : S8192.ShapeCasts S8192x1
  shapeCasts_S8192_S1x8192 : S8192.ShapeCasts S1x8192
  shapeCasts_S8192x1_S8192 : S8192x1.ShapeCasts S8192
  reducesTo_S8192x1_S_d0_1 : S8192x1.ReducesTo [0, 1] S_
  h_S_ : 0 < S_.numel
  reducesTo_S8192_S_d0 : S8192.ReducesTo [0] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x8192.size a
  hwx0_7 : ∀ i : grid0.Coords, EltTy.bits .f32 = 32 ∨ (Rect.block (s := S8192x8192) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S8192x1.size a
  hwx0_9 : ∀ i : grid0.Coords, EltTy.bits .f32 = 32 ∨ (Rect.block (s := S8192x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S8192x1.size a
  hwx0_10 : ∀ i : grid0.Coords, EltTy.bits .f32 = 32 ∨ (Rect.block (s := S8192x1) S1024x1.size (cc0_transform_10 i) (hinb0_10 i)).WholeWords (EltTy.packing .f32)

variable [Facts₀]

abbrev win0_0 : Pipeline.Window sig grid0 :=
  Pipeline.Window.ofSpec (Memref.whole main_call0_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S1024x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8_0) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8_1) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_call0_v8_2) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S8192 : Shape := ⟨1, ![8192]⟩
abbrev S8192x8192 : Shape := ⟨2, ![8192, 8192]⟩
abbrev S1x8192 : Shape := ⟨2, ![1, 8192]⟩
abbrev S8192x1 : Shape := ⟨2, ![8192, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S1x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_
  reducesTo_S8192x8192_S_d0_1 : S8192x8192.ReducesTo [0, 1] S_

variable [Facts₀]

class Facts : Prop extends Facts₀ where

variable [Facts]
-- ==== Proof.PointPieces.lean ====
/-
  What the body leaves at one grid point, as values.

  The grid is 8 row tiles by 8 column tiles; the column tile moves fastest.  Three [1024, 1]
  accumulators (coupling, squares, moduli) live across the 8 points of a row tile.  At the first
  column tile each is zeroed and then gets the tile's row sums added; at the others it gets them
  added to what the previous point left; at the last column tile the three output blocks receive
  the accumulators' final contents.  Each statement below says that one stored block is the
  body's arithmetic of the blocks it loaded, for any float instance.
-/
import proofs.«153661_j34110630265364_2_alg».proof.Proof.Gen.KernelIdeal.Frame
import Idealize.ShloMosaic.Lib.Pipeline.Value
import Idealize.ShloMosaic.Lib.Tactic

set_option maxRecDepth 16384

noncomputable section

namespace Cert.KernelIdeal.PointPieces

open Cert.KernelIdeal Cert.KernelIdeal.Gen Idealize.ShloMosaic Idealize.ShloMosaic.TcCoe Idealize.SL.Sem

variable {F : FTy → Type} [FloatOps F]

/-- The offset of a store or load that spans its whole buffer. -/
theorem hz : (![0, 0] : Fin 2 → Nat) = fun _ => 0 := funext fun a => by fin_cases a <;> rfl

/-- At the first column tile the coupling accumulator is zeroed and then receives the tile's contribution: the last store covers it, and its read-back of the zero fill is the zero fill. -/
theorem first_coupling (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay1 (k0_pay8 x4 x3 x5 x2 x0 x1 x6 x7 k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At a middle column tile the coupling accumulator receives the tile's contribution on top of what the point before left. -/
theorem middle_coupling (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay1 (k0_pay8 x4 x3 x5 x2 x0 x1 x6 x7 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the coupling accumulator receives the tile's contribution on top of what the point before left. -/
theorem last_coupling (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay1 (k0_pay8 x4 x3 x5 x2 x0 x1 x6 x7 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the coupling output block is the accumulator's final contents, read back after the accumulator's store. -/
theorem out_coupling (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay1 (k0_pay8 x4 x3 x5 x2 x0 x1 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the first column tile the squares accumulator is zeroed and then receives the tile's contribution: the last store covers it, and its read-back of the zero fill is the zero fill. -/
theorem first_squares (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay2 (k0_pay7 x7) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At a middle column tile the squares accumulator receives the tile's contribution on top of what the point before left. -/
theorem middle_squares (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay2 (k0_pay7 x7) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the squares accumulator receives the tile's contribution on top of what the point before left. -/
theorem last_squares (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay2 (k0_pay7 x7) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the squares output block is the accumulator's final contents, read back after the accumulator's store. -/
theorem out_squares (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay2 (k0_pay7 x7) xs1 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the first column tile the moduli accumulator is zeroed and then receives the tile's contribution: the last store covers it, and its read-back of the zero fill is the zero fill. -/
theorem first_moduli (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay3 (k0_pay7 x7) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At a middle column tile the moduli accumulator receives the tile's contribution on top of what the point before left. -/
theorem middle_moduli (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay3 (k0_pay7 x7) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the moduli accumulator receives the tile's contribution on top of what the point before left. -/
theorem last_moduli (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay3 (k0_pay7 x7) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

/-- At the last column tile the moduli output block is the accumulator's final contents, read back after the accumulator's store. -/
theorem out_moduli (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x1 .f32) (x1 : Vec F S1x1024 .f32) (x2 : Vec F S1024x1 .f32) (x3 : Vec F S1024x1 .f32) (x4 : Vec F S1x1024 .f32) (x5 : Vec F S1x1024 .f32) (x6 : Vec F S1024x1024 .f32) (x7 : Vec F S1024x1024 .f32) (xs0 : Vec F S1024x1 .f32) (xs1 : Vec F S1024x1 .f32) (xs2 : Vec F S1024x1 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k0_pay3 (k0_pay7 x7) xs2 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) hz, View.ld_unit_zero (S := S1x1024) hz, View.ld_unit_zero (S := S1024x1024) hz]

end Cert.KernelIdeal.PointPieces

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.TileValue.lean ====
/-
  What one grid point computes, read entry by entry on the extended reals.

  At a point the body holds one 1024 x 1024 tile of K and of the distance mask, the matching 1024
  rows of the column vectors (alive, sin phases, cos phases as [1024, 1] columns) and the matching
  1024 columns of the row vectors (the same three as [1, 1024] rows).  For local row y it adds to
  each of three running sums the sum over the tile's 1024 columns q of

    coupling : (K(y,q) * ((alive_col(y) * alive_row(q)) * dist(y,q)))
                 * (sin_row(q) * cos_col(y) - cos_row(q) * sin_col(y))
    squares  : |K(y,q)| * |K(y,q)|
    moduli   : |K(y,q)|

  and at the first column tile the running sums start from zero.
-/
import proofs.«153661_j34110630265364_2_alg».proof.Proof.Gen.KernelIdeal.Skeleton
import proofs.«153661_j34110630265364_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- A sum along the 1024 lanes of a [1024, 1024] tile, at row r: the sum over the columns of that row. -/
theorem laneSum_apply (src : FVec Ideal S1024x1024 .f32) (h : S1024x1024.Reduces [1] S1024) (hφ : FKind.Formats .f32)
    (hacc : (0x00000000#32 : BitVec 32) = 0x00000000#32) (r : Fin 1024) :
    multiReduction .add [1] S1024 src 0x00000000#32 h hφ hacc (ix1 r) = ∑ k : Fin 1024, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- The coupling term of one tile at local row y and local column q. -/
def couplingTerm (acol : FVec Ideal S1024x1 .f32) (arow : FVec Ideal S1x1024 .f32) (scol ccol : FVec Ideal S1024x1 .f32)
    (srow crow : FVec Ideal S1x1024 .f32) (dist k : FVec Ideal S1024x1024 .f32) (y q : Fin 1024) : EReal :=
  (k (ix2 y q) * ((acol (ix2 y (0 : Fin 1)) * arow (ix2 (0 : Fin 1) q)) * dist (ix2 y q)))
    * (srow (ix2 (0 : Fin 1) q) * ccol (ix2 y (0 : Fin 1)) - crow (ix2 (0 : Fin 1) q) * scol (ix2 y (0 : Fin 1)))

/-- The coupling accumulator after the body: what it held plus the tile's row sum of coupling terms. -/
theorem coupling_apply (acol : FVec Ideal S1024x1 .f32) (arow : FVec Ideal S1x1024 .f32) (scol ccol : FVec Ideal S1024x1 .f32)
    (srow crow : FVec Ideal S1x1024 .f32) (dist k : FVec Ideal S1024x1024 .f32) (acc : FVec Ideal S1024x1 .f32)
    (y : Fin 1024) (u : Fin 1) :
    k0_pay8 (F := Ideal) srow ccol crow scol acol arow dist k acc (ix2 y u)
      = acc (ix2 y u) + ∑ q : Fin 1024, couplingTerm acol arow scol ccol srow crow dist k y q := by
  unfold k0_pay8
  dsimp only
  refine congrArg (acc (ix2 y u) + ·) ?_
  refine (shapeCast_a_a1_apply _ _ y u).trans ?_
  refine (laneSum_apply _ _ _ _ y).trans ?_
  refine Finset.sum_congr rfl fun q _ => ?_
  simp only [mulf_apply, subf_apply, shapeCast_self, broadcastTo_a1_ab_apply, broadcastTo_1b_ab_apply, couplingTerm]

/-- The squares accumulator after the body: what it held plus the tile's row sum of |K| * |K|. -/
theorem squares_apply (ak : FVec Ideal S1024x1024 .f32) (acc : FVec Ideal S1024x1 .f32) (y : Fin 1024) (u : Fin 1) :
    k0_pay2 (F := Ideal) ak acc (ix2 y u) = acc (ix2 y u) + ∑ q : Fin 1024, ak (ix2 y q) * ak (ix2 y q) := by
  unfold k0_pay2
  dsimp only
  rw [shapeCast_self]
  refine congrArg (acc (ix2 y u) + ·) ?_
  refine (shapeCast_a_a1_apply _ _ y u).trans ?_
  exact laneSum_apply _ _ _ _ y

/-- The moduli accumulator after the body: what it held plus the tile's row sum of |K|. -/
theorem moduli_apply (ak : FVec Ideal S1024x1024 .f32) (acc : FVec Ideal S1024x1 .f32) (y : Fin 1024) (u : Fin 1) :
    k0_pay3 (F := Ideal) ak acc (ix2 y u) = acc (ix2 y u) + ∑ q : Fin 1024, ak (ix2 y q) := by
  unfold k0_pay3
  dsimp only
  rw [shapeCast_self]
  refine congrArg (acc (ix2 y u) + ·) ?_
  refine (shapeCast_a_a1_apply _ _ y u).trans ?_
  exact laneSum_apply _ _ _ _ y

/-- |K| entry by entry. -/
theorem modulus_apply (k : FVec Ideal S1024x1024 .f32) (j : S1024x1024.Idx) :
    k0_pay7 (F := Ideal) k j = FloatOps.absf (F := Ideal) (φ := .f32) (k j) := rfl

/-- The three zero fills are zero at every entry. -/
theorem zero4_apply (j : S1024x1.Idx) : k0_pay4 (F := Ideal) j = 0 := by
  unfold k0_pay4
  rw [shapeCast_self]
  exact Ideal.ofBits_zero_f32

theorem zero5_apply (j : S1024x1.Idx) : k0_pay5 (F := Ideal) j = 0 := by
  unfold k0_pay5
  rw [shapeCast_self]
  exact Ideal.ofBits_zero_f32

theorem zero6_apply (j : S1024x1.Idx) : k0_pay6 (F := Ideal) j = 0 := by
  unfold k0_pay6
  rw [shapeCast_self]
  exact Ideal.ofBits_zero_f32

/-- The value stored back into the coupling accumulator is the value computed (a cast to the same shape). -/
theorem stored_eq {F : FTy → Type} [FloatOps F] (v : FVec F S1024x1 .f32) : k0_pay1 (F := F) v = v := by
  unfold k0_pay1
  dsimp only
  exact shapeCast_self _ _

end Cert.KernelIdeal.TileValue

end
-- ==== Proof.TileSums.lean ====
/-
  Sums over the 8192 columns of a row, taken 1024 at a time.

  A natural number is read as a coordinate of an axis of extent 8192 by reducing it modulo 8192
  (the identity below 8192), so that a sum over the first n columns can be written over
  Finset.range n with no side condition.  The partial sum over the first 1024 * (j + 1) columns is
  the partial sum over the first 1024 * j columns plus the sum over column tile j; the first tile
  alone is the sum over the first 1024 columns; and the sum over all 8192 is the sum over Fin 8192.
-/
import Mathlib.Algebra.BigOperators.Fin
import Mathlib.Tactic.Ring

namespace Cert.TileSums

/-- A natural number as a coordinate of an axis of extent 8192. -/
def wrap (n : ℕ) : Fin 8192 := ⟨n % 8192, Nat.mod_lt _ (by norm_num)⟩

theorem wrap_val (n : ℕ) : (wrap n).val = n % 8192 := rfl

theorem wrap_val_of_lt {n : ℕ} (h : n < 8192) : (wrap n).val = n := Nat.mod_eq_of_lt h

theorem wrap_fin (k : Fin 8192) : wrap k.val = k := Fin.ext (Nat.mod_eq_of_lt k.isLt)

variable {M : Type*} [AddCommMonoid M]

/-- The first 1024 * (j + 1) columns are the first 1024 * j columns and then column tile j. -/
theorem sum_range_tile (f : ℕ → M) (j : ℕ) :
    ∑ k ∈ Finset.range (1024 * (j + 1)), f k
      = ∑ k ∈ Finset.range (1024 * j), f k + ∑ q : Fin 1024, f (1024 * j + q.val) := by
  rw [show 1024 * (j + 1) = 1024 * j + 1024 by ring, Finset.sum_range_add,
    Finset.sum_range (fun x => f (1024 * j + x))]

/-- The first 1024 columns are column tile 0. -/
theorem sum_range_first (f : ℕ → M) :
    ∑ k ∈ Finset.range (1024 * (0 + 1)), f k = ∑ q : Fin 1024, f (1024 * 0 + q.val) := by
  rw [sum_range_tile, Nat.mul_zero, Finset.range_zero, Finset.sum_empty, zero_add]

/-- All 8192 columns, as a sum over the axis. -/
theorem sum_range_all (g : Fin 8192 → M) :
    ∑ k ∈ Finset.range 8192, g (wrap k) = ∑ k : Fin 8192, g k := by
  rw [Finset.sum_range (fun k => g (wrap k))]
  exact Finset.sum_congr rfl fun k _ => by rw [wrap_fin]

end Cert.TileSums
-- ==== Proof.RunningSums.lean ====
/-
  The three running sums across the grid.

  Point t of the 64 is row tile t / 8 and column tile t % 8.  Its blocks are the arrays read at rows
  1024 * (t / 8) + y and columns 1024 * (t % 8) + q.  With the terms of a global row r and column k

    coupling : (K(r,k) * ((alive_col(r) * alive_row(k)) * dist(r,k)))
                 * (sin_row(k) * cos_col(r) - cos_row(k) * sin_col(r))
    square   : |K(r,k)| * |K(r,k)|        modulus : |K(r,k)|

  each accumulator holds, after point t, the sum of its term over the first 1024 * (t % 8 + 1)
  columns of row 1024 * (t / 8) + y; after the last column tile that is the whole row, and it is what
  the output block receives.
-/
import proofs.«153661_j34110630265364_2_alg».proof.Proof.PointPieces
import proofs.«153661_j34110630265364_2_alg».proof.Proof.TileValue
import proofs.«153661_j34110630265364_2_alg».proof.Proof.TileSums
import Idealize.ShloMosaic.Lib.ValueIdx

set_option maxRecDepth 16384

noncomputable section

namespace Cert.KernelIdeal.RunningSums

open Cert.KernelIdeal Cert.KernelIdeal.Gen Idealize.ShloMosaic Idealize.ShloMosaic.TcCoe Idealize.SL.Sem
open Idealize.ShloMosaic.ValueIdx Cert.TileSums Cert.KernelIdeal.TileValue

variable (m : (ℓ : Loc nD τ sig) → Buf (Elt Ideal) ℓ)

/-- Window 0's array as the region finds it. -/
abbrev arr0 (c : Dev nD) : FVec Ideal S8192x1 .f32 := V m c main_call0_v0
/-- Window 1's array as the region finds it. -/
abbrev arr1 (c : Dev nD) : FVec Ideal S1x8192 .f32 := V m c main_call0_v1
/-- Window 2's array as the region finds it. -/
abbrev arr2 (c : Dev nD) : FVec Ideal S8192x1 .f32 := V m c main_call0_v4
/-- Window 3's array as the region finds it. -/
abbrev arr3 (c : Dev nD) : FVec Ideal S8192x1 .f32 := V m c main_call0_v5
/-- Window 4's array as the region finds it. -/
abbrev arr4 (c : Dev nD) : FVec Ideal S1x8192 .f32 := V m c main_call0_v6
/-- Window 5's array as the region finds it. -/
abbrev arr5 (c : Dev nD) : FVec Ideal S1x8192 .f32 := V m c main_call0_v7
/-- Window 6's array as the region finds it. -/
abbrev arr6 (c : Dev nD) : FVec Ideal S8192x8192 .f32 := V m c main_arg2
/-- Window 7's array as the region finds it. -/
abbrev arr7 (c : Dev nD) : FVec Ideal S8192x8192 .f32 := V m c main_arg3

/-- The coupling term of global row r and column k. -/
def couplingAt (c : Dev nD) (r k : Fin 8192) : EReal :=
  (arr7 m c (ix2 r k) * ((arr0 m c (ix2 r (0 : Fin 1)) * arr1 m c (ix2 (0 : Fin 1) k)) * arr6 m c (ix2 r k)))
    * (arr4 m c (ix2 (0 : Fin 1) k) * arr3 m c (ix2 r (0 : Fin 1)) - arr5 m c (ix2 (0 : Fin 1) k) * arr2 m c (ix2 r (0 : Fin 1)))

/-- |K(r,k)| * |K(r,k)|. -/
def squareAt (c : Dev nD) (r k : Fin 8192) : EReal :=
  FloatOps.absf (F := Ideal) (φ := .f32) (arr7 m c (ix2 r k)) * FloatOps.absf (F := Ideal) (φ := .f32) (arr7 m c (ix2 r k))

/-- |K(r,k)|. -/
def modulusAt (c : Dev nD) (r k : Fin 8192) : EReal :=
  FloatOps.absf (F := Ideal) (φ := .f32) (arr7 m c (ix2 r k))

/-! ## Where each window's block sits: decided once over the 64 points -/

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val % 8 :=
  (by decide +kernel : ∀ t : Fin grid0.N, _)
theorem idx5 : ∀ t : Fin cfg0.N, win0_5.index t (0 : Fin 2) = 0 ∧ win0_5.index t (1 : Fin 2) = t.val % 8 :=
  (by decide +kernel : ∀ t : Fin grid0.N, _)
theorem idx6 : ∀ t : Fin cfg0.N, win0_6.index t (0 : Fin 2) = t.val / 8 ∧ win0_6.index t (1 : Fin 2) = t.val % 8 :=
  (by decide +kernel : ∀ t : Fin grid0.N, _)
theorem idx7 : ∀ t : Fin cfg0.N, win0_7.index t (0 : Fin 2) = t.val / 8 ∧ win0_7.index t (1 : Fin 2) = t.val % 8 :=
  (by decide +kernel : ∀ t : Fin grid0.N, _)
theorem idx8 : ∀ t : Fin cfg0.N, win0_8.index t (0 : Fin 2) = t.val / 8 ∧ win0_8.index t (1 : Fin 2) = 0 :=
  (by decide +kernel : ∀ t : Fin grid0.N, _)
theorem idx9 : ∀ t : Fin cfg0.N, win0_9.index t (0 : Fin 2) = t.val / 8 ∧ win0_9.index t (1 : Fin 2) = 0 :=
  (by decide +kernel : ∀ t : Fin grid0.N, _)
theorem idx10 : ∀ t : Fin cfg0.N, win0_10.index t (0 : Fin 2) = t.val / 8 ∧ win0_10.index t (1 : Fin 2) = 0 :=
  (by decide +kernel : ∀ t : Fin grid0.N, _)

/-! ## A block's entry is the array's entry -/

/-- Window 0's block at point t, entry by entry: the array read at row tile t / 8, column tile t % 8. -/
theorem blk0 (c : Dev nD) (t : Fin cfg0.N) (y : Fin 1024) (u : Fin 1) :
    (iblk m c 0 t : FVec Ideal S1024x1 .f32) (ix2 y u) = arr0 m c (ix2 (wrap (1024 * (t.val / 8) + y.val)) (0 : Fin 1)) := by
  obtain ⟨e0, e1⟩ := idx0 t
  have hN : cfg0.N = 64 := N_0
  have ht := t.isLt
  have hu : u.val = 0 := by omega
  show V m c main_call0_v0 (((cfg0.win 0).blk t).view.emb (ix2 y u)) = V m c main_call0_v0 (ix2 (wrap (1024 * (t.val / 8) + y.val)) (0 : Fin 1))
  refine congrArg (V m c main_call0_v0) (funext fun a => Fin.ext ?_)
  match a with
  | ⟨0, _⟩ =>
    show win0_0.index t (0 : Fin 2) * 1024 + 1 * y.val = (1024 * (t.val / 8) + y.val) % 8192
    rw [e0]; omega
  | ⟨1, _⟩ =>
    show win0_0.index t (1 : Fin 2) * 1 + 1 * u.val = 0
    rw [e1]; omega

/-- Window 1's block at point t, entry by entry: the array read at row tile t / 8, column tile t % 8. -/
theorem blk1 (c : Dev nD) (t : Fin cfg0.N) (u : Fin 1) (q : Fin 1024) :
    (iblk m c 1 t : FVec Ideal S1x1024 .f32) (ix2 u q) = arr1 m c (ix2 (0 : Fin 1) (wrap (1024 * (t.val % 8) + q.val))) := by
  obtain ⟨e0, e1⟩ := idx1 t
  have hN : cfg0.N = 64 := N_0
  have ht := t.isLt
  have hu : u.val = 0 := by omega
  show V m c main_call0_v1 (((cfg0.win 1).blk t).view.emb (ix2 u q)) = V m c main_call0_v1 (ix2 (0 : Fin 1) (wrap (1024 * (t.val % 8) + q.val)))
  refine congrArg (V m c main_call0_v1) (funext fun a => Fin.ext ?_)
  match a with
  | ⟨0, _⟩ =>
    show win0_1.index t (0 : Fin 2) * 1 + 1 * u.val = 0
    rw [e0]; omega
  | ⟨1, _⟩ =>
    show win0_1.index t (1 : Fin 2) * 1024 + 1 * q.val = (1024 * (t.val % 8) + q.val) % 8192
    rw [e1]; omega

/-- Window 2's block at point t, entry by entry: the array read at row tile t / 8, column tile t % 8. -/
theorem blk2 (c : Dev nD) (t : Fin cfg0.N) (y : Fin 1024) (u : Fin 1) :
    (iblk m c 2 t : FVec Ideal S1024x1 .f32) (ix2 y u) = arr2 m c (ix2 (wrap (1024 * (t.val / 8) + y.val)) (0 : Fin 1)) := by
  obtain ⟨e0, e1⟩ := idx2 t
  have hN : cfg0.N = 64 := N_0
  have ht := t.isLt
  have hu : u.val = 0 := by omega
  show V m c main_call0_v4 (((cfg0.win 2).blk t).view.emb (ix2 y u)) = V m c main_call0_v4 (ix2 (wrap (1024 * (t.val / 8) + y.val)) (0 : Fin 1))
  refine congrArg (V m c main_call0_v4) (funext fun a => Fin.ext ?_)
  match a with
  | ⟨0, _⟩ =>
    show win0_2.index t (0 : Fin 2) * 1024 + 1 * y.val = (1024 * (t.val / 8) + y.val) % 8192
    rw [e0]; omega
  | ⟨1, _⟩ =>
    show win0_2.index t (1 : Fin 2) * 1 + 1 * u.val = 0
    rw [e1]; omega

/-- Window 3's block at point t, entry by entry: the array read at row tile t / 8, column tile t % 8. -/
theorem blk3 (c : Dev nD) (t : Fin cfg0.N) (y : Fin 1024) (u : Fin 1) :
    (iblk m c 3 t : FVec Ideal S1024x1 .f32) (ix2 y u) = arr3 m c (ix2 (wrap (1024 * (t.val / 8) + y.val)) (0 : Fin 1)) := by
  obtain ⟨e0, e1⟩ := idx3 t
  have hN : cfg0.N = 64 := N_0
  have ht := t.isLt
  have hu : u.val = 0 := by omega
  show V m c main_call0_v5 (((cfg0.win 3).blk t).view.emb (ix2 y u)) = V m c main_call0_v5 (ix2 (wrap (1024 * (t.val / 8) + y.val)) (0 : Fin 1))
  refine congrArg (V m c main_call0_v5) (funext fun a => Fin.ext ?_)
  match a with
  | ⟨0, _⟩ =>
    show win0_3.index t (0 : Fin 2) * 1024 + 1 * y.val = (1024 * (t.val / 8) + y.val) % 8192
    rw [e0]; omega
  | ⟨1, _⟩ =>
    show win0_3.index t (1 : Fin 2) * 1 + 1 * u.val = 0
    rw [e1]; omega

/-- Window 4's block at point t, entry by entry: the array read at row tile t / 8, column tile t % 8. -/
theorem blk4 (c : Dev nD) (t : Fin cfg0.N) (u : Fin 1) (q : Fin 1024) :
    (iblk m c 4 t : FVec Ideal S1x1024 .f32) (ix2 u q) = arr4 m c (ix2 (0 : Fin 1) (wrap (1024 * (t.val % 8) + q.val))) := by
  obtain ⟨e0, e1⟩ := idx4 t
  have hN : cfg0.N = 64 := N_0
  have ht := t.isLt
  have hu : u.val = 0 := by omega
  show V m c main_call0_v6 (((cfg0.win 4).blk t).view.emb (ix2 u q)) = V m c main_call0_v6 (ix2 (0 : Fin 1) (wrap (1024 * (t.val % 8) + q.val)))
  refine congrArg (V m c main_call0_v6) (funext fun a => Fin.ext ?_)
  match a with
  | ⟨0, _⟩ =>
    show win0_4.index t (0 : Fin 2) * 1 + 1 * u.val = 0
    rw [e0]; omega
  | ⟨1, _⟩ =>
    show win0_4.index t (1 : Fin 2) * 1024 + 1 * q.val = (1024 * (t.val % 8) + q.val) % 8192
    rw [e1]; omega

/-- Window 5's block at point t, entry by entry: the array read at row tile t / 8, column tile t % 8. -/
theorem blk5 (c : Dev nD) (t : Fin cfg0.N) (u : Fin 1) (q : Fin 1024) :
    (iblk m c 5 t : FVec Ideal S1x1024 .f32) (ix2 u q) = arr5 m c (ix2 (0 : Fin 1) (wrap (1024 * (t.val % 8) + q.val))) := by
  obtain ⟨e0, e1⟩ := idx5 t
  have hN : cfg0.N = 64 := N_0
  have ht := t.isLt
  have hu : u.val = 0 := by omega
  show V m c main_call0_v7 (((cfg0.win 5).blk t).view.emb (ix2 u q)) = V m c main_call0_v7 (ix2 (0 : Fin 1) (wrap (1024 * (t.val % 8) + q.val)))
  refine congrArg (V m c main_call0_v7) (funext fun a => Fin.ext ?_)
  match a with
  | ⟨0, _⟩ =>
    show win0_5.index t (0 : Fin 2) * 1 + 1 * u.val = 0
    rw [e0]; omega
  | ⟨1, _⟩ =>
    show win0_5.index t (1 : Fin 2) * 1024 + 1 * q.val = (1024 * (t.val % 8) + q.val) % 8192
    rw [e1]; omega

/-- Window 6's block at point t, entry by entry: the array read at row tile t / 8, column tile t % 8. -/
theorem blk6 (c : Dev nD) (t : Fin cfg0.N) (y q : Fin 1024) :
    (iblk m c 6 t : FVec Ideal S1024x1024 .f32) (ix2 y q) = arr6 m c (ix2 (wrap (1024 * (t.val / 8) + y.val)) (wrap (1024 * (t.val % 8) + q.val))) := by
  obtain ⟨e0, e1⟩ := idx6 t
  have hN : cfg0.N = 64 := N_0
  have ht := t.isLt
  show V m c main_arg2 (((cfg0.win 6).blk t).view.emb (ix2 y q)) = V m c main_arg2 (ix2 (wrap (1024 * (t.val / 8) + y.val)) (wrap (1024 * (t.val % 8) + q.val)))
  refine congrArg (V m c main_arg2) (funext fun a => Fin.ext ?_)
  match a with
  | ⟨0, _⟩ =>
    show win0_6.index t (0 : Fin 2) * 1024 + 1 * y.val = (1024 * (t.val / 8) + y.val) % 8192
    rw [e0]; omega
  | ⟨1, _⟩ =>
    show win0_6.index t (1 : Fin 2) * 1024 + 1 * q.val = (1024 * (t.val % 8) + q.val) % 8192
    rw [e1]; omega

/-- Window 7's block at point t, entry by entry: the array read at row tile t / 8, column tile t % 8. -/
theorem blk7 (c : Dev nD) (t : Fin cfg0.N) (y q : Fin 1024) :
    (iblk m c 7 t : FVec Ideal S1024x1024 .f32) (ix2 y q) = arr7 m c (ix2 (wrap (1024 * (t.val / 8) + y.val)) (wrap (1024 * (t.val % 8) + q.val))) := by
  obtain ⟨e0, e1⟩ := idx7 t
  have hN : cfg0.N = 64 := N_0
  have ht := t.isLt
  show V m c main_arg3 (((cfg0.win 7).blk t).view.emb (ix2 y q)) = V m c main_arg3 (ix2 (wrap (1024 * (t.val / 8) + y.val)) (wrap (1024 * (t.val % 8) + q.val)))
  refine congrArg (V m c main_arg3) (funext fun a => Fin.ext ?_)
  match a with
  | ⟨0, _⟩ =>
    show win0_7.index t (0 : Fin 2) * 1024 + 1 * y.val = (1024 * (t.val / 8) + y.val) % 8192
    rw [e0]; omega
  | ⟨1, _⟩ =>
    show win0_7.index t (1 : Fin 2) * 1024 + 1 * q.val = (1024 * (t.val % 8) + q.val) % 8192
    rw [e1]; omega

/-! ## One tile's row sums, in global coordinates -/

theorem tile_coupling (c : Dev nD) (t : Fin cfg0.N) (y : Fin 1024) :
    ∑ q : Fin 1024, couplingTerm (iblk m c 0 t) (iblk m c 1 t) (iblk m c 2 t) (iblk m c 3 t) (iblk m c 4 t) (iblk m c 5 t)
        (iblk m c 6 t) (iblk m c 7 t) y q
      = ∑ q : Fin 1024, couplingAt m c (wrap (1024 * (t.val / 8) + y.val)) (wrap (1024 * (t.val % 8) + q.val)) := by
  refine Finset.sum_congr rfl fun q _ => ?_
  unfold couplingTerm couplingAt
  rw [blk7 m c t y q, blk0 m c t y 0, blk1 m c t 0 q, blk6 m c t y q, blk4 m c t 0 q, blk3 m c t y 0, blk5 m c t 0 q,
    blk2 m c t y 0]

theorem tile_squares (c : Dev nD) (t : Fin cfg0.N) (y : Fin 1024) :
    ∑ q : Fin 1024, k0_pay7 (F := Ideal) (iblk m c 7 t) (ix2 y q) * k0_pay7 (F := Ideal) (iblk m c 7 t) (ix2 y q)
      = ∑ q : Fin 1024, squareAt m c (wrap (1024 * (t.val / 8) + y.val)) (wrap (1024 * (t.val % 8) + q.val)) := by
  refine Finset.sum_congr rfl fun q _ => ?_
  show FloatOps.absf (F := Ideal) (φ := .f32) ((iblk m c 7 t : FVec Ideal S1024x1024 .f32) (ix2 y q))
    * FloatOps.absf (F := Ideal) (φ := .f32) ((iblk m c 7 t : FVec Ideal S1024x1024 .f32) (ix2 y q)) = _
  rw [blk7 m c t y q]
  rfl

theorem tile_moduli (c : Dev nD) (t : Fin cfg0.N) (y : Fin 1024) :
    ∑ q : Fin 1024, k0_pay7 (F := Ideal) (iblk m c 7 t) (ix2 y q)
      = ∑ q : Fin 1024, modulusAt m c (wrap (1024 * (t.val / 8) + y.val)) (wrap (1024 * (t.val % 8) + q.val)) := by
  refine Finset.sum_congr rfl fun q _ => ?_
  show FloatOps.absf (F := Ideal) (φ := .f32) ((iblk m c 7 t : FVec Ideal S1024x1024 .f32) (ix2 y q)) = _
  rw [blk7 m c t y q]
  rfl

/-! ## The accumulators point by point -/

/-- The coupling accumulator after a point at the first column tile: the tile's row sums alone. -/
theorem coupling_first (c : Dev nD) (t : Fin cfg0.N) (h0 : t.val % 8 = 0) (h1 : ¬t.val % 8 = 7) (y : Fin 1024) (u : Fin 1) :
    ((outsAt0 m c t.val t.isLt).2.2.2.1 : FVec Ideal S1024x1 .f32) (ix2 y u)
      = ∑ q : Fin 1024, couplingAt m c (wrap (1024 * (t.val / 8) + y.val)) (wrap (1024 * (t.val % 8) + q.val)) := by
  rw [outsAt0_A m c t h0 h1]
  dsimp only
  rw [PointPieces.first_coupling (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)]
  rw [TileValue.stored_eq]
  refine (TileValue.coupling_apply (iblk m c 0 t) (iblk m c 1 t) (iblk m c 2 t) (iblk m c 3 t) (iblk m c 4 t) (iblk m c 5 t) (iblk m c 6 t) (iblk m c 7 t) (k0_pay4 (F := Ideal)) y u).trans ?_
  rw [TileValue.zero4_apply, zero_add]
  exact tile_coupling m c t y

/-- The coupling accumulator after a later point: what the point before left plus the tile's row sums. -/
theorem coupling_next (c : Dev nD) (t : Fin cfg0.N) (h0 : ¬t.val % 8 = 0) (y : Fin 1024) (u : Fin 1) :
    ((outsAt0 m c t.val t.isLt).2.2.2.1 : FVec Ideal S1024x1 .f32) (ix2 y u)
      = (((outsAt0 m c (t.val - 1) (Nat.lt_of_le_of_lt (Nat.sub_le _ _) t.isLt)).2.2.2.1) : FVec Ideal S1024x1 .f32) (ix2 y u)
        + ∑ q : Fin 1024, couplingAt m c (wrap (1024 * (t.val / 8) + y.val)) (wrap (1024 * (t.val % 8) + q.val)) := by
  by_cases h1 : t.val % 8 = 7
  · rw [outsAt0_C m c t h0 h1]
    dsimp only
    rw [PointPieces.last_coupling (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    rw [TileValue.stored_eq]
    refine (TileValue.coupling_apply (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.1) y u).trans ?_
    rw [tile_coupling m c t y]
  · rw [outsAt0_B m c t h0 h1]
    dsimp only
    rw [PointPieces.middle_coupling (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    rw [TileValue.stored_eq]
    refine (TileValue.coupling_apply (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.1) y u).trans ?_
    rw [tile_coupling m c t y]

/-- THE RUNNING SUM. After point n (row tile n / 8, column tile n % 8) the coupling accumulator holds, at local
    row y, the sum over the first 1024 * (n % 8 + 1) columns of the term of global row 1024 * (n / 8) + y:
    by induction on the point, the first column tile starting the sum and every other extending it by one tile. -/
theorem coupling_running (c : Dev nD) : ∀ (n : ℕ) (hn : n < cfg0.N) (y : Fin 1024) (u : Fin 1),
    ((outsAt0 m c n hn).2.2.2.1 : FVec Ideal S1024x1 .f32) (ix2 y u)
      = ∑ k ∈ Finset.range (1024 * (n % 8 + 1)), couplingAt m c (wrap (1024 * (n / 8) + y.val)) (wrap k) := by
  intro n
  induction n using Nat.strong_induction_on with
  | _ n ih =>
    intro hn y u
    have hN : cfg0.N = 64 := N_0
    by_cases h0 : n % 8 = 0
    · have h1 : ¬n % 8 = 7 := by omega
      refine (coupling_first m c ⟨n, hn⟩ h0 h1 y u).trans ?_
      show ∑ q : Fin 1024, couplingAt m c (wrap (1024 * (n / 8) + y.val)) (wrap (1024 * (n % 8) + q.val)) = _
      rw [h0]
      exact (sum_range_first (fun k => couplingAt m c (wrap (1024 * (n / 8) + y.val)) (wrap k))).symm
    · refine (coupling_next m c ⟨n, hn⟩ h0 y u).trans ?_
      show ((outsAt0 m c (n - 1) _).2.2.2.1 : FVec Ideal S1024x1 .f32) (ix2 y u)
        + ∑ q : Fin 1024, couplingAt m c (wrap (1024 * (n / 8) + y.val)) (wrap (1024 * (n % 8) + q.val)) = _
      rw [ih (n - 1) (by omega) (by omega) y u]
      have e1 : (n - 1) % 8 + 1 = n % 8 := by omega
      have e2 : (n - 1) / 8 = n / 8 := by omega
      rw [e1, e2]
      exact (sum_range_tile (fun k => couplingAt m c (wrap (1024 * (n / 8) + y.val)) (wrap k)) (n % 8)).symm

/-- At the last column tile the coupling output block is the accumulator: the whole row's sum. -/
theorem coupling_out (c : Dev nD) (t : Fin cfg0.N) (h1 : t.val % 8 = 7) (y : Fin 1024) (u : Fin 1) :
    ((outsAt0 m c t.val t.isLt).1 : FVec Ideal S1024x1 .f32) (ix2 y u)
      = ∑ k ∈ Finset.range 8192, couplingAt m c (wrap (1024 * (t.val / 8) + y.val)) (wrap k) := by
  have h0 : ¬t.val % 8 = 0 := by omega
  have e : ((outsAt0 m c t.val t.isLt).1 : FVec Ideal S1024x1 .f32) = (outsAt0 m c t.val t.isLt).2.2.2.1 := by
    rw [outsAt0_C m c t h0 h1]
    dsimp only
    rw [PointPieces.out_coupling (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      PointPieces.last_coupling (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rw [e, coupling_running m c t.val t.isLt y u, h1]

/-- The squares accumulator after a point at the first column tile: the tile's row sums alone. -/
theorem squares_first (c : Dev nD) (t : Fin cfg0.N) (h0 : t.val % 8 = 0) (h1 : ¬t.val % 8 = 7) (y : Fin 1024) (u : Fin 1) :
    ((outsAt0 m c t.val t.isLt).2.2.2.2.1 : FVec Ideal S1024x1 .f32) (ix2 y u)
      = ∑ q : Fin 1024, squareAt m c (wrap (1024 * (t.val / 8) + y.val)) (wrap (1024 * (t.val % 8) + q.val)) := by
  rw [outsAt0_A m c t h0 h1]
  dsimp only
  rw [PointPieces.first_squares (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)]
  refine (TileValue.squares_apply (k0_pay7 (F := Ideal) (iblk m c 7 t)) (k0_pay5 (F := Ideal)) y u).trans ?_
  rw [TileValue.zero5_apply, zero_add]
  exact tile_squares m c t y

/-- The squares accumulator after a later point: what the point before left plus the tile's row sums. -/
theorem squares_next (c : Dev nD) (t : Fin cfg0.N) (h0 : ¬t.val % 8 = 0) (y : Fin 1024) (u : Fin 1) :
    ((outsAt0 m c t.val t.isLt).2.2.2.2.1 : FVec Ideal S1024x1 .f32) (ix2 y u)
      = (((outsAt0 m c (t.val - 1) (Nat.lt_of_le_of_lt (Nat.sub_le _ _) t.isLt)).2.2.2.2.1) : FVec Ideal S1024x1 .f32) (ix2 y u)
        + ∑ q : Fin 1024, squareAt m c (wrap (1024 * (t.val / 8) + y.val)) (wrap (1024 * (t.val % 8) + q.val)) := by
  by_cases h1 : t.val % 8 = 7
  · rw [outsAt0_C m c t h0 h1]
    dsimp only
    rw [PointPieces.last_squares (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    refine (TileValue.squares_apply (k0_pay7 (F := Ideal) (iblk m c 7 t)) ((outsAt0 m c (t.val - 1) (Nat.lt_of_le_of_lt (Nat.sub_le _ _) t.isLt)).2.2.2.2.1) y u).trans ?_
    rw [tile_squares m c t y]
  · rw [outsAt0_B m c t h0 h1]
    dsimp only
    rw [PointPieces.middle_squares (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    refine (TileValue.squares_apply (k0_pay7 (F := Ideal) (iblk m c 7 t)) ((outsAt0 m c (t.val - 1) (Nat.lt_of_le_of_lt (Nat.sub_le _ _) t.isLt)).2.2.2.2.1) y u).trans ?_
    rw [tile_squares m c t y]

/-- THE RUNNING SUM. After point n (row tile n / 8, column tile n % 8) the squares accumulator holds, at local
    row y, the sum over the first 1024 * (n % 8 + 1) columns of the term of global row 1024 * (n / 8) + y:
    by induction on the point, the first column tile starting the sum and every other extending it by one tile. -/
theorem squares_running (c : Dev nD) : ∀ (n : ℕ) (hn : n < cfg0.N) (y : Fin 1024) (u : Fin 1),
    ((outsAt0 m c n hn).2.2.2.2.1 : FVec Ideal S1024x1 .f32) (ix2 y u)
      = ∑ k ∈ Finset.range (1024 * (n % 8 + 1)), squareAt m c (wrap (1024 * (n / 8) + y.val)) (wrap k) := by
  intro n
  induction n using Nat.strong_induction_on with
  | _ n ih =>
    intro hn y u
    have hN : cfg0.N = 64 := N_0
    by_cases h0 : n % 8 = 0
    · have h1 : ¬n % 8 = 7 := by omega
      refine (squares_first m c ⟨n, hn⟩ h0 h1 y u).trans ?_
      show ∑ q : Fin 1024, squareAt m c (wrap (1024 * (n / 8) + y.val)) (wrap (1024 * (n % 8) + q.val)) = _
      rw [h0]
      exact (sum_range_first (fun k => squareAt m c (wrap (1024 * (n / 8) + y.val)) (wrap k))).symm
    · refine (squares_next m c ⟨n, hn⟩ h0 y u).trans ?_
      show ((outsAt0 m c (n - 1) _).2.2.2.2.1 : FVec Ideal S1024x1 .f32) (ix2 y u)
        + ∑ q : Fin 1024, squareAt m c (wrap (1024 * (n / 8) + y.val)) (wrap (1024 * (n % 8) + q.val)) = _
      rw [ih (n - 1) (by omega) (by omega) y u]
      have e1 : (n - 1) % 8 + 1 = n % 8 := by omega
      have e2 : (n - 1) / 8 = n / 8 := by omega
      rw [e1, e2]
      exact (sum_range_tile (fun k => squareAt m c (wrap (1024 * (n / 8) + y.val)) (wrap k)) (n % 8)).symm

/-- At the last column tile the squares output block is the accumulator: the whole row's sum. -/
theorem squares_out (c : Dev nD) (t : Fin cfg0.N) (h1 : t.val % 8 = 7) (y : Fin 1024) (u : Fin 1) :
    ((outsAt0 m c t.val t.isLt).2.1 : FVec Ideal S1024x1 .f32) (ix2 y u)
      = ∑ k ∈ Finset.range 8192, squareAt m c (wrap (1024 * (t.val / 8) + y.val)) (wrap k) := by
  have h0 : ¬t.val % 8 = 0 := by omega
  have e : ((outsAt0 m c t.val t.isLt).2.1 : FVec Ideal S1024x1 .f32) = (outsAt0 m c t.val t.isLt).2.2.2.2.1 := by
    rw [outsAt0_C m c t h0 h1]
    dsimp only
    rw [PointPieces.out_squares (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      PointPieces.last_squares (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rw [e, squares_running m c t.val t.isLt y u, h1]

/-- The moduli accumulator after a point at the first column tile: the tile's row sums alone. -/
theorem moduli_first (c : Dev nD) (t : Fin cfg0.N) (h0 : t.val % 8 = 0) (h1 : ¬t.val % 8 = 7) (y : Fin 1024) (u : Fin 1) :
    ((outsAt0 m c t.val t.isLt).2.2.2.2.2 : FVec Ideal S1024x1 .f32) (ix2 y u)
      = ∑ q : Fin 1024, modulusAt m c (wrap (1024 * (t.val / 8) + y.val)) (wrap (1024 * (t.val % 8) + q.val)) := by
  rw [outsAt0_A m c t h0 h1]
  dsimp only
  rw [PointPieces.first_moduli (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)]
  refine (TileValue.moduli_apply (k0_pay7 (F := Ideal) (iblk m c 7 t)) (k0_pay6 (F := Ideal)) y u).trans ?_
  rw [TileValue.zero6_apply, zero_add]
  exact tile_moduli m c t y

/-- The moduli accumulator after a later point: what the point before left plus the tile's row sums. -/
theorem moduli_next (c : Dev nD) (t : Fin cfg0.N) (h0 : ¬t.val % 8 = 0) (y : Fin 1024) (u : Fin 1) :
    ((outsAt0 m c t.val t.isLt).2.2.2.2.2 : FVec Ideal S1024x1 .f32) (ix2 y u)
      = (((outsAt0 m c (t.val - 1) (Nat.lt_of_le_of_lt (Nat.sub_le _ _) t.isLt)).2.2.2.2.2) : FVec Ideal S1024x1 .f32) (ix2 y u)
        + ∑ q : Fin 1024, modulusAt m c (wrap (1024 * (t.val / 8) + y.val)) (wrap (1024 * (t.val % 8) + q.val)) := by
  by_cases h1 : t.val % 8 = 7
  · rw [outsAt0_C m c t h0 h1]
    dsimp only
    rw [PointPieces.last_moduli (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    refine (TileValue.moduli_apply (k0_pay7 (F := Ideal) (iblk m c 7 t)) ((outsAt0 m c (t.val - 1) (Nat.lt_of_le_of_lt (Nat.sub_le _ _) t.isLt)).2.2.2.2.2) y u).trans ?_
    rw [tile_moduli m c t y]
  · rw [outsAt0_B m c t h0 h1]
    dsimp only
    rw [PointPieces.middle_moduli (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    refine (TileValue.moduli_apply (k0_pay7 (F := Ideal) (iblk m c 7 t)) ((outsAt0 m c (t.val - 1) (Nat.lt_of_le_of_lt (Nat.sub_le _ _) t.isLt)).2.2.2.2.2) y u).trans ?_
    rw [tile_moduli m c t y]

/-- THE RUNNING SUM. After point n (row tile n / 8, column tile n % 8) the moduli accumulator holds, at local
    row y, the sum over the first 1024 * (n % 8 + 1) columns of the term of global row 1024 * (n / 8) + y:
    by induction on the point, the first column tile starting the sum and every other extending it by one tile. -/
theorem moduli_running (c : Dev nD) : ∀ (n : ℕ) (hn : n < cfg0.N) (y : Fin 1024) (u : Fin 1),
    ((outsAt0 m c n hn).2.2.2.2.2 : FVec Ideal S1024x1 .f32) (ix2 y u)
      = ∑ k ∈ Finset.range (1024 * (n % 8 + 1)), modulusAt m c (wrap (1024 * (n / 8) + y.val)) (wrap k) := by
  intro n
  induction n using Nat.strong_induction_on with
  | _ n ih =>
    intro hn y u
    have hN : cfg0.N = 64 := N_0
    by_cases h0 : n % 8 = 0
    · have h1 : ¬n % 8 = 7 := by omega
      refine (moduli_first m c ⟨n, hn⟩ h0 h1 y u).trans ?_
      show ∑ q : Fin 1024, modulusAt m c (wrap (1024 * (n / 8) + y.val)) (wrap (1024 * (n % 8) + q.val)) = _
      rw [h0]
      exact (sum_range_first (fun k => modulusAt m c (wrap (1024 * (n / 8) + y.val)) (wrap k))).symm
    · refine (moduli_next m c ⟨n, hn⟩ h0 y u).trans ?_
      show ((outsAt0 m c (n - 1) _).2.2.2.2.2 : FVec Ideal S1024x1 .f32) (ix2 y u)
        + ∑ q : Fin 1024, modulusAt m c (wrap (1024 * (n / 8) + y.val)) (wrap (1024 * (n % 8) + q.val)) = _
      rw [ih (n - 1) (by omega) (by omega) y u]
      have e1 : (n - 1) % 8 + 1 = n % 8 := by omega
      have e2 : (n - 1) / 8 = n / 8 := by omega
      rw [e1, e2]
      exact (sum_range_tile (fun k => modulusAt m c (wrap (1024 * (n / 8) + y.val)) (wrap k)) (n % 8)).symm

/-- At the last column tile the moduli output block is the accumulator: the whole row's sum. -/
theorem moduli_out (c : Dev nD) (t : Fin cfg0.N) (h1 : t.val % 8 = 7) (y : Fin 1024) (u : Fin 1) :
    ((outsAt0 m c t.val t.isLt).2.2.1 : FVec Ideal S1024x1 .f32) (ix2 y u)
      = ∑ k ∈ Finset.range 8192, modulusAt m c (wrap (1024 * (t.val / 8) + y.val)) (wrap k) := by
  have h0 : ¬t.val % 8 = 0 := by omega
  have e : ((outsAt0 m c t.val t.isLt).2.2.1 : FVec Ideal S1024x1 .f32) = (outsAt0 m c t.val t.isLt).2.2.2.2.2 := by
    rw [outsAt0_C m c t h0 h1]
    dsimp only
    rw [PointPieces.out_moduli (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      PointPieces.last_moduli (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rw [e, moduli_running m c t.val t.isLt y u, h1]

end Cert.KernelIdeal.RunningSums

end
-- ==== Proof.FinalArrays.lean ====
/-
  The three result arrays of the region after the run.

  Each [8192, 1] result is written back only at the last column tile of a row tile, and the eight
  blocks so written tile it.  What is written is the accumulator's final contents, so row r of the
  result holds the sum over all 8192 columns of the term of row r.
-/
import proofs.«153661_j34110630265364_2_alg».proof.Proof.RunningSums
import Idealize.ShloMosaic.Lib.Pipeline.Value

set_option maxRecDepth 16384

noncomputable section

namespace Cert.KernelIdeal.FinalArrays

open Cert.KernelIdeal Cert.KernelIdeal.Gen Idealize.ShloMosaic Idealize.ShloMosaic.TcCoe Idealize.SL.Sem
open Idealize.ShloMosaic.ValueIdx Cert.TileSums Cert.KernelIdeal.RunningSums
open Idealize.ShloMosaic.Pipeline (Dat)

variable (m : (ℓ : Loc nD τ sig) → Buf (Elt Ideal) ℓ)

/-- Row by row, the sum of a term over all 8192 columns, as an [8192, 1] array. -/
def rowSums (f : Fin 8192 → Fin 8192 → EReal) : FVec Ideal S8192x1 .f32 :=
  fun i => ∑ k ∈ Finset.range 8192, f (wrap (i 0).val) (wrap k)

/-! ## Result 0: the coupling sums -/

/-- An index of the result is in point t's block iff each coordinate is in the block's range on its axis. -/
theorem mem_blk8 (t : Fin cfg0.N) (i : S8192x1.Idx) :
    i ∈ ((cfg0.win 8).blk t).view.set
      ↔ ∀ a : Fin 2, win0_8.index t a * S1024x1.size a ≤ (i a).val ∧ (i a).val < win0_8.index t a * S1024x1.size a + S1024x1.size a := by
  show i ∈ ((View.whole main_call0_v8_0).slice (win0_8.rect t)).set ↔ _
  rw [View.set_slice_whole, Rect.mem_set_unit]
  exact Iff.rfl

/-- What a point at the last column tile writes back is its block of the whole-row sums. -/
theorem flushed8_eq (c : Dev nD) (t : Fin cfg0.N) (hf : (cfg0.win 8).flush t = true) :
    (dats m 0 c).flushed 8 t = ((cfg0.win 8).blk t).view.read (Elt Ideal) (rowSums (couplingAt m c)) := by
  have h7 : t.val % 8 = 7 := (flush0_8 t).mp hf
  obtain ⟨e0, e1⟩ := idx8 t
  have hN : cfg0.N = 64 := N_0
  have ht := t.isLt
  have key : ((outsAt0 m c t.val t.isLt).1 : FVec Ideal S1024x1 .f32)
      = fun j => rowSums (couplingAt m c) (((cfg0.win 8).blk t).view.emb j) := by
    funext j
    obtain ⟨y, u, rfl⟩ : ∃ (y : Fin 1024) (u : Fin 1), j = ix2 y u := ⟨j 0, j 1, eq_ix2 j⟩
    rw [coupling_out m c t h7 y u]
    unfold rowSums
    have er : wrap ((((cfg0.win 8).blk t).view.emb (ix2 y u)) 0).val = wrap (1024 * (t.val / 8) + y.val) :=
      congrArg wrap (by
        show win0_8.index t (0 : Fin 2) * 1024 + 1 * y.val = _
        rw [e0]; omega)
    rw [er]
  show (cfg0.win 8).cut (grid0.coords t) ((dats m 0 c).after 8 t) = _
  rw [after0_8]
  funext j
  exact congrFun key j

/-- Every row of the result lies in the block of the point at the last column tile of its row tile. -/
theorem cover8 (i : S8192x1.Idx) :
    ∃ t : Fin cfg0.N, (cfg0.win 8).flush t = true ∧ i ∈ ((cfg0.win 8).blk t).view.set := by
  have hi0 : (i 0).val < 8192 := (i 0).isLt
  have hi1 : (i 1).val < 1 := (i 1).isLt
  have hN : cfg0.N = 64 := N_0
  have hb : 8 * ((i 0).val / 1024) + 7 < cfg0.N := by rw [hN]; omega
  obtain ⟨e0, e1⟩ := idx8 ⟨8 * ((i 0).val / 1024) + 7, hb⟩
  refine ⟨⟨8 * ((i 0).val / 1024) + 7, hb⟩, (flush0_8 _).mpr (by show (8 * ((i 0).val / 1024) + 7) % 8 = 7; omega), ?_⟩
  rw [mem_blk8]
  intro a
  match a with
  | ⟨0, _⟩ =>
    show win0_8.index ⟨8 * ((i 0).val / 1024) + 7, hb⟩ (0 : Fin 2) * 1024 ≤ (i 0).val
      ∧ (i 0).val < win0_8.index ⟨8 * ((i 0).val / 1024) + 7, hb⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_8.index ⟨8 * ((i 0).val / 1024) + 7, hb⟩ (1 : Fin 2) * 1 ≤ (i 1).val
      ∧ (i 1).val < win0_8.index ⟨8 * ((i 0).val / 1024) + 7, hb⟩ (1 : Fin 2) * 1 + 1
    rw [e1]
    omega

/-- So the result array ends holding the whole-row coupling sums. -/
theorem final8 (c : Dev nD) : (dats m 0 c).arrAt 8 cfg0.N = rowSums (couplingAt m c) :=
  (dats m 0 c).arrAt_eq_of_cover 8 (rowSums (couplingAt m c)) (flushed8_eq m c) cover8

/-! ## Result 1: the squares sums -/

/-- An index of the result is in point t's block iff each coordinate is in the block's range on its axis. -/
theorem mem_blk9 (t : Fin cfg0.N) (i : S8192x1.Idx) :
    i ∈ ((cfg0.win 9).blk t).view.set
      ↔ ∀ a : Fin 2, win0_9.index t a * S1024x1.size a ≤ (i a).val ∧ (i a).val < win0_9.index t a * S1024x1.size a + S1024x1.size a := by
  show i ∈ ((View.whole main_call0_v8_1).slice (win0_9.rect t)).set ↔ _
  rw [View.set_slice_whole, Rect.mem_set_unit]
  exact Iff.rfl

/-- What a point at the last column tile writes back is its block of the whole-row sums. -/
theorem flushed9_eq (c : Dev nD) (t : Fin cfg0.N) (hf : (cfg0.win 9).flush t = true) :
    (dats m 0 c).flushed 9 t = ((cfg0.win 9).blk t).view.read (Elt Ideal) (rowSums (squareAt m c)) := by
  have h7 : t.val % 8 = 7 := (flush0_9 t).mp hf
  obtain ⟨e0, e1⟩ := idx9 t
  have hN : cfg0.N = 64 := N_0
  have ht := t.isLt
  have key : ((outsAt0 m c t.val t.isLt).2.1 : FVec Ideal S1024x1 .f32)
      = fun j => rowSums (squareAt m c) (((cfg0.win 9).blk t).view.emb j) := by
    funext j
    obtain ⟨y, u, rfl⟩ : ∃ (y : Fin 1024) (u : Fin 1), j = ix2 y u := ⟨j 0, j 1, eq_ix2 j⟩
    rw [squares_out m c t h7 y u]
    unfold rowSums
    have er : wrap ((((cfg0.win 9).blk t).view.emb (ix2 y u)) 0).val = wrap (1024 * (t.val / 8) + y.val) :=
      congrArg wrap (by
        show win0_9.index t (0 : Fin 2) * 1024 + 1 * y.val = _
        rw [e0]; omega)
    rw [er]
  show (cfg0.win 9).cut (grid0.coords t) ((dats m 0 c).after 9 t) = _
  rw [after0_9]
  funext j
  exact congrFun key j

/-- Every row of the result lies in the block of the point at the last column tile of its row tile. -/
theorem cover9 (i : S8192x1.Idx) :
    ∃ t : Fin cfg0.N, (cfg0.win 9).flush t = true ∧ i ∈ ((cfg0.win 9).blk t).view.set := by
  have hi0 : (i 0).val < 8192 := (i 0).isLt
  have hi1 : (i 1).val < 1 := (i 1).isLt
  have hN : cfg0.N = 64 := N_0
  have hb : 8 * ((i 0).val / 1024) + 7 < cfg0.N := by rw [hN]; omega
  obtain ⟨e0, e1⟩ := idx9 ⟨8 * ((i 0).val / 1024) + 7, hb⟩
  refine ⟨⟨8 * ((i 0).val / 1024) + 7, hb⟩, (flush0_9 _).mpr (by show (8 * ((i 0).val / 1024) + 7) % 8 = 7; omega), ?_⟩
  rw [mem_blk9]
  intro a
  match a with
  | ⟨0, _⟩ =>
    show win0_9.index ⟨8 * ((i 0).val / 1024) + 7, hb⟩ (0 : Fin 2) * 1024 ≤ (i 0).val
      ∧ (i 0).val < win0_9.index ⟨8 * ((i 0).val / 1024) + 7, hb⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_9.index ⟨8 * ((i 0).val / 1024) + 7, hb⟩ (1 : Fin 2) * 1 ≤ (i 1).val
      ∧ (i 1).val < win0_9.index ⟨8 * ((i 0).val / 1024) + 7, hb⟩ (1 : Fin 2) * 1 + 1
    rw [e1]
    omega

/-- So the result array ends holding the whole-row squares sums. -/
theorem final9 (c : Dev nD) : (dats m 0 c).arrAt 9 cfg0.N = rowSums (squareAt m c) :=
  (dats m 0 c).arrAt_eq_of_cover 9 (rowSums (squareAt m c)) (flushed9_eq m c) cover9

/-! ## Result 2: the moduli sums -/

/-- An index of the result is in point t's block iff each coordinate is in the block's range on its axis. -/
theorem mem_blk10 (t : Fin cfg0.N) (i : S8192x1.Idx) :
    i ∈ ((cfg0.win 10).blk t).view.set
      ↔ ∀ a : Fin 2, win0_10.index t a * S1024x1.size a ≤ (i a).val ∧ (i a).val < win0_10.index t a * S1024x1.size a + S1024x1.size a := by
  show i ∈ ((View.whole main_call0_v8_2).slice (win0_10.rect t)).set ↔ _
  rw [View.set_slice_whole, Rect.mem_set_unit]
  exact Iff.rfl

/-- What a point at the last column tile writes back is its block of the whole-row sums. -/
theorem flushed10_eq (c : Dev nD) (t : Fin cfg0.N) (hf : (cfg0.win 10).flush t = true) :
    (dats m 0 c).flushed 10 t = ((cfg0.win 10).blk t).view.read (Elt Ideal) (rowSums (modulusAt m c)) := by
  have h7 : t.val % 8 = 7 := (flush0_10 t).mp hf
  obtain ⟨e0, e1⟩ := idx10 t
  have hN : cfg0.N = 64 := N_0
  have ht := t.isLt
  have key : ((outsAt0 m c t.val t.isLt).2.2.1 : FVec Ideal S1024x1 .f32)
      = fun j => rowSums (modulusAt m c) (((cfg0.win 10).blk t).view.emb j) := by
    funext j
    obtain ⟨y, u, rfl⟩ : ∃ (y : Fin 1024) (u : Fin 1), j = ix2 y u := ⟨j 0, j 1, eq_ix2 j⟩
    rw [moduli_out m c t h7 y u]
    unfold rowSums
    have er : wrap ((((cfg0.win 10).blk t).view.emb (ix2 y u)) 0).val = wrap (1024 * (t.val / 8) + y.val) :=
      congrArg wrap (by
        show win0_10.index t (0 : Fin 2) * 1024 + 1 * y.val = _
        rw [e0]; omega)
    rw [er]
  show (cfg0.win 10).cut (grid0.coords t) ((dats m 0 c).after 10 t) = _
  rw [after0_10]
  funext j
  exact congrFun key j

/-- Every row of the result lies in the block of the point at the last column tile of its row tile. -/
theorem cover10 (i : S8192x1.Idx) :
    ∃ t : Fin cfg0.N, (cfg0.win 10).flush t = true ∧ i ∈ ((cfg0.win 10).blk t).view.set := by
  have hi0 : (i 0).val < 8192 := (i 0).isLt
  have hi1 : (i 1).val < 1 := (i 1).isLt
  have hN : cfg0.N = 64 := N_0
  have hb : 8 * ((i 0).val / 1024) + 7 < cfg0.N := by rw [hN]; omega
  obtain ⟨e0, e1⟩ := idx10 ⟨8 * ((i 0).val / 1024) + 7, hb⟩
  refine ⟨⟨8 * ((i 0).val / 1024) + 7, hb⟩, (flush0_10 _).mpr (by show (8 * ((i 0).val / 1024) + 7) % 8 = 7; omega), ?_⟩
  rw [mem_blk10]
  intro a
  match a with
  | ⟨0, _⟩ =>
    show win0_10.index ⟨8 * ((i 0).val / 1024) + 7, hb⟩ (0 : Fin 2) * 1024 ≤ (i 0).val
      ∧ (i 0).val < win0_10.index ⟨8 * ((i 0).val / 1024) + 7, hb⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_10.index ⟨8 * ((i 0).val / 1024) + 7, hb⟩ (1 : Fin 2) * 1 ≤ (i 1).val
      ∧ (i 1).val < win0_10.index ⟨8 * ((i 0).val / 1024) + 7, hb⟩ (1 : Fin 2) * 1 + 1
    rw [e1]
    omega

/-- So the result array ends holding the whole-row moduli sums. -/
theorem final10 (c : Dev nD) : (dats m 0 c).arrAt 10 cfg0.N = rowSums (modulusAt m c) :=
  (dats m 0 c).arrAt_eq_of_cover 10 (rowSums (modulusAt m c)) (flushed10_eq m c) cover10

end Cert.KernelIdeal.FinalArrays

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.HostSide.lean ====
/-
  The host operations around the region, read as values.

  Before the region: the six small operands are the alive mask, sin(phases) and cos(phases), each
  laid out once as an [8192, 1] column and once as a [1, 8192] row; the two large operands are the
  distance mask and K as given.

  After the region: the first result is the order parameter sqrt(mean(cos)^2 + mean(sin)^2) of
  the phases; the second is the coupling result with its unit axis dropped; the third is
      (1 - R) + c * sqrt(sum of the squares result) + c * (sum of the moduli result)
  with c the word 0x3C23D70A — one function of R and the two sums, which is never opened.
-/
import proofs.«153661_j34110630265364_2_alg».proof.Proof.FinalArrays
import proofs.«153661_j34110630265364_2_alg».proof.Proof.LibTRef
import Idealize.ShloMosaic.Lib.Pipeline.Value
import Idealize.ShloMosaic.Lib.StableHlo.Run
import Idealize.ShloMosaic.Lib.Tactic

set_option maxRecDepth 16384

noncomputable section

namespace Cert.KernelIdeal.HostSide

open Cert.KernelIdeal Cert.KernelIdeal.Gen Idealize.ShloMosaic Idealize.ShloMosaic.TcCoe Idealize.SL.Sem
open Cert.KernelIdeal.RunningSums Cert.KernelIdeal.FinalArrays

variable (m : (ℓ : Loc nD τ sig) → Buf (Elt Ideal) ℓ)

/-- The four inputs on core c. -/
abbrev phases (c : Dev nD) : FVec Ideal S8192 .f32 := m ((c : Thread nD τ).loc main_arg0)
abbrev alive (c : Dev nD) : FVec Ideal S8192 .f32 := m ((c : Thread nD τ).loc main_arg1)
abbrev dist (c : Dev nD) : FVec Ideal S8192x8192 .f32 := m ((c : Thread nD τ).loc main_arg2)
abbrev kmat (c : Dev nD) : FVec Ideal S8192x8192 .f32 := m ((c : Thread nD τ).loc main_arg3)

/-! ## The operands as the region finds them -/

theorem arr0_eq (c : Dev nD) : arr0 m c = shapeCast S8192x1 (alive m c) shapeCasts_S8192_S8192x1 := by
  show StableHlo.after hostOps0 (fun b => m (c, b)) (Proc.devRef .tc main_call0_v0) = _
  after_results
  rfl

theorem arr1_eq (c : Dev nD) : arr1 m c = shapeCast S1x8192 (alive m c) shapeCasts_S8192_S1x8192 := by
  show StableHlo.after hostOps0 (fun b => m (c, b)) (Proc.devRef .tc main_call0_v1) = _
  after_results
  rfl

theorem arr2_eq (c : Dev nD) : arr2 m c = shapeCast S8192x1 (Host.sin (phases m c)) shapeCasts_S8192_S8192x1 := by
  show StableHlo.after hostOps0 (fun b => m (c, b)) (Proc.devRef .tc main_call0_v4) = _
  after_results
  rfl

theorem arr3_eq (c : Dev nD) : arr3 m c = shapeCast S8192x1 (Host.cos (phases m c)) shapeCasts_S8192_S8192x1 := by
  show StableHlo.after hostOps0 (fun b => m (c, b)) (Proc.devRef .tc main_call0_v5) = _
  after_results
  rfl

theorem arr4_eq (c : Dev nD) : arr4 m c = shapeCast S1x8192 (Host.sin (phases m c)) shapeCasts_S8192_S1x8192 := by
  show StableHlo.after hostOps0 (fun b => m (c, b)) (Proc.devRef .tc main_call0_v6) = _
  after_results
  rfl

theorem arr5_eq (c : Dev nD) : arr5 m c = shapeCast S1x8192 (Host.cos (phases m c)) shapeCasts_S8192_S1x8192 := by
  show StableHlo.after hostOps0 (fun b => m (c, b)) (Proc.devRef .tc main_call0_v7) = _
  after_results
  rfl

theorem arr6_eq (c : Dev nD) : arr6 m c = dist m c := V_main_arg2 m c

theorem arr7_eq (c : Dev nD) : arr7 m c = kmat m c := V_main_arg3 m c

/-! ## What the operations after the region read -/

/-- cos(phases), which the region does not touch. -/
theorem read_cos (c : Dev nD) :
    (StableHlo.TRef.of main_call0_v3 : StableHlo.TRef sig ⟨S8192, .f32⟩).ofBuf
        (Pipeline.withArrays (cfgs 0).spec c (V0 m c) (fun w => (dats m 0 c).arrAt w (cfgs 0).N) (Proc.devRef .tc main_call0_v3))
      = Host.cos (phases m c) := by
  rw [Pipeline.withArrays_of_ne _ c (V0 m c) _ main_call0_v3 (by exact (by decide : ∀ w, Pipeline.arrRef spec0 w ≠ main_call0_v3))]
  show StableHlo.after hostOps0 (fun b => m (c, b)) (Proc.devRef .tc main_call0_v3) = _
  after_results
  rfl

/-- sin(phases), which the region does not touch. -/
theorem read_sin (c : Dev nD) :
    (StableHlo.TRef.of main_call0_v2 : StableHlo.TRef sig ⟨S8192, .f32⟩).ofBuf
        (Pipeline.withArrays (cfgs 0).spec c (V0 m c) (fun w => (dats m 0 c).arrAt w (cfgs 0).N) (Proc.devRef .tc main_call0_v2))
      = Host.sin (phases m c) := by
  rw [Pipeline.withArrays_of_ne _ c (V0 m c) _ main_call0_v2 (by exact (by decide : ∀ w, Pipeline.arrRef spec0 w ≠ main_call0_v2))]
  show StableHlo.after hostOps0 (fun b => m (c, b)) (Proc.devRef .tc main_call0_v2) = _
  after_results
  rfl

/-- The region's three results. -/
theorem read_coupling (c : Dev nD) :
    Pipeline.withArrays (cfgs 0).spec c (V0 m c) (fun w => (dats m 0 c).arrAt w (cfgs 0).N) (Proc.devRef .tc main_call0_v8_0) = rowSums (couplingAt m c) :=
  (Pipeline.withArrays_arr spec0 launch0.win.arr_inj c _ _ 8).trans (final8 m c)

theorem read_squares (c : Dev nD) :
    (StableHlo.TRef.of main_call0_v8_1 : StableHlo.TRef sig ⟨S8192x1, .f32⟩).ofBuf
        (Pipeline.withArrays (cfgs 0).spec c (V0 m c) (fun w => (dats m 0 c).arrAt w (cfgs 0).N) (Proc.devRef .tc main_call0_v8_1))
      = rowSums (squareAt m c) := by
  show Pipeline.withArrays spec0 c (V0 m c) (fun w => (dats m 0 c).arrAt w cfg0.N) (Proc.devRef .tc (Pipeline.arrRef spec0 9)) = _
  exact (Pipeline.withArrays_arr spec0 launch0.win.arr_inj c _ _ 9).trans (final9 m c)

theorem read_moduli (c : Dev nD) :
    (StableHlo.TRef.of main_call0_v8_2 : StableHlo.TRef sig ⟨S8192x1, .f32⟩).ofBuf
        (Pipeline.withArrays (cfgs 0).spec c (V0 m c) (fun w => (dats m 0 c).arrAt w (cfgs 0).N) (Proc.devRef .tc main_call0_v8_2))
      = rowSums (modulusAt m c) := by
  show Pipeline.withArrays spec0 c (V0 m c) (fun w => (dats m 0 c).arrAt w cfg0.N) (Proc.devRef .tc (Pipeline.arrRef spec0 10)) = _
  exact (Pipeline.withArrays_arr spec0 launch0.win.arr_inj c _ _ 10).trans (final10 m c)

/-! ## The results -/

/-- sqrt(mean(cos)^2 + mean(sin)^2), the means over the 8192 entries. -/
def orderParam (s co : FVec Ideal S8192 .f32) : FVec Ideal S_ .f32 :=
  Host.sqrt (F := Ideal)
    (addf
      (mulf
        (Host.divf (F := Ideal) (Host.reduceAdd (F := Ideal) co (constant (F := Ideal) S_ .f32 0x00000000#32) reducesTo_S8192_S_d0 h_S_) (constant (F := Ideal) S_ .f32 0x46000000#32))
        (Host.divf (F := Ideal) (Host.reduceAdd (F := Ideal) co (constant (F := Ideal) S_ .f32 0x00000000#32) reducesTo_S8192_S_d0 h_S_) (constant (F := Ideal) S_ .f32 0x46000000#32)))
      (mulf
        (Host.divf (F := Ideal) (Host.reduceAdd (F := Ideal) s (constant (F := Ideal) S_ .f32 0x00000000#32) reducesTo_S8192_S_d0 h_S_) (constant (F := Ideal) S_ .f32 0x46000000#32))
        (Host.divf (F := Ideal) (Host.reduceAdd (F := Ideal) s (constant (F := Ideal) S_ .f32 0x00000000#32) reducesTo_S8192_S_d0 h_S_) (constant (F := Ideal) S_ .f32 0x46000000#32))))

/-- (1 - R) + c * sqrt(k2) + c * kabs. -/
def lossOf (R k2 kabs : FVec Ideal S_ .f32) : FVec Ideal S_ .f32 :=
  addf
    (addf (subf (constant (F := Ideal) S_ .f32 0x3F800000#32) R)
      (mulf (constant (F := Ideal) S_ .f32 0x3C23D70A#32) (Host.sqrt (F := Ideal) k2)))
    (mulf (constant (F := Ideal) S_ .f32 0x3C23D70A#32) kabs)

/-- The sum of all entries of an [8192, 1] array, from the zero word. -/
def totalOf (x : FVec Ideal S8192x1 .f32) : FVec Ideal S_ .f32 :=
  Host.reduceAdd (F := Ideal) x (constant (F := Ideal) S_ .f32 0x00000000#32) reducesTo_S8192x1_S_d0_1 h_S_

set_option maxHeartbeats 2000000 in
/-- The first result: the order parameter of the phases. -/
theorem tail_R (c : Dev nD) :
    Pipeline.afterTail₀ cfgs (dats m) 0 (V0 m) [hostOps1] c main_v0_0
      = orderParam (Host.sin (phases m c)) (Host.cos (phases m c)) := by
  unfold Pipeline.afterTail₀
  show StableHlo.after hostOps1 _ (Proc.devRef .tc main_v0_0) = _
  after_results_simp
  simp only [StableHlo.TRef.ofBuf_toBuf]
  rw [read_cos m c, read_sin m c]
  rfl

set_option maxHeartbeats 2000000 in
/-- The second result: the coupling sums, as a vector. -/
theorem tail_dtheta (c : Dev nD) :
    Pipeline.afterTail₀ cfgs (dats m) 0 (V0 m) [hostOps1] c main_v0_1
      = shapeCast S8192 (rowSums (couplingAt m c)) shapeCasts_S8192x1_S8192 := by
  unfold Pipeline.afterTail₀
  show StableHlo.after hostOps1 _ (Proc.devRef .tc main_v0_1) = _
  after_results_simp
  rw [read_coupling m c]
  rfl

set_option maxHeartbeats 2000000 in
/-- The third result: the loss of the order parameter and the two sums. -/
theorem tail_loss (c : Dev nD) :
    Pipeline.afterTail₀ cfgs (dats m) 0 (V0 m) [hostOps1] c main_v0_2
      = lossOf (orderParam (Host.sin (phases m c)) (Host.cos (phases m c)))
          (totalOf (rowSums (squareAt m c))) (totalOf (rowSums (modulusAt m c))) := by
  unfold Pipeline.afterTail₀
  show StableHlo.after hostOps1 _ (Proc.devRef .tc main_v0_2) = _
  after_results_simp
  simp only [StableHlo.TRef.ofBuf_toBuf]
  rw [read_cos m c, read_sin m c, read_squares m c, read_moduli m c]
  rfl

end Cert.KernelIdeal.HostSide

end
-- ==== Proof.KernelRun.lean ====
/-
  The idealized kernel's run, with its three results named.

  Every weakly fair execution terminates with the first result at the order parameter of the
  phases, the second at the whole-row coupling sums laid out as a vector, the third at the loss of
  the order parameter and the totals of the two other row-sum arrays; the four inputs end as they
  began (the two small ones are no array of the region and no later operation writes them; the two
  large ones are staged inputs of the region, which never writes an input back).
-/
import proofs.«153661_j34110630265364_2_alg».proof.Proof.HostSide

set_option maxRecDepth 16384

noncomputable section

namespace Cert.KernelIdeal.KernelRun

open Cert.KernelIdeal Cert.KernelIdeal.Gen Idealize.ShloMosaic Idealize.ShloMosaic.TcCoe Idealize.SL.Sem
open Cert.KernelIdeal.RunningSums Cert.KernelIdeal.FinalArrays Cert.KernelIdeal.HostSide

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v0_0) = orderParam (Host.sin (phases m c)) (Host.cos (phases m c))
      ∧ r.2.mem ((c.tc : Thread nD τ).loc main_v0_1) = shapeCast S8192 (rowSums (couplingAt m c)) shapeCasts_S8192x1_S8192
      ∧ r.2.mem ((c.tc : Thread nD τ).loc main_v0_2)
          = lossOf (orderParam (Host.sin (phases m c)) (Host.cos (phases m c)))
              (totalOf (rowSums (squareAt m c))) (totalOf (rowSums (modulusAt m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0_0 (Pipeline.mem_restRefs_of main_v0_0 (by decide) (by decide))).trans (tail_R m c),
      ((h c).2 main_v0_1 (Pipeline.mem_restRefs_of main_v0_1 (by decide) (by decide))).trans (tail_dtheta m c),
      ((h c).2 main_v0_2 (Pipeline.mem_restRefs_of main_v0_2 (by decide) (by decide))).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c)))⟩)
    (run_main m ρ)

end Cert.KernelIdeal.KernelRun

end
-- ==== Proof.RefReads.lean ====
/-
  The reference's three results, read entry by entry on the extended reals.

  Row r of the coupling is the sum over the columns k of
    (K(r,k) * ((alive(r) * alive(k)) * dist(r,k))) * sin (phase(k) - phase(r));
  the two whole-matrix sums are double sums over the rows and the columns of K(r,k) * K(r,k) and
  of |K(r,k)|.  (The initial value of each sum is the zero word, which denotes 0.)
-/
import proofs.«153661_j34110630265364_2_alg».proof.Proof.Gen.ReferenceIdeal.Read
import Idealize.ShloMosaic.Lib.ValueIdx
import Idealize.ShloMosaic.PureOps.Ideal.Laws

noncomputable section

namespace Cert.ReferenceIdeal.RefReads

open Cert.ReferenceIdeal Cert.ReferenceIdeal.Read Idealize.ShloMosaic Idealize.ShloMosaic.ValueIdx

/-- The zero word denotes 0. -/
theorem zero_word : (FloatOps.ofBits (F := Ideal) .f32 0x00000000#32 : EReal) = 0 := Ideal.ofBits_zero_f32

/-- Row r of the reference's coupling. -/
theorem coupling_row (P A : FVec Ideal S8192 .f32) (D K : FVec Ideal S8192x8192 .f32) (r : Fin 8192) :
    val_main_v14 (F := Ideal) P A D K (ix1 r)
      = ∑ k : Fin 8192, (K (ix2 r k) * ((A (ix1 r) * A (ix1 k)) * D (ix2 r k))) * Ideal.sin (P (ix1 k) - P (ix1 r)) := by
  rw [val_main_v14_apply, val_main_cst_apply, zero_word, zero_add]
  refine Finset.sum_congr rfl fun k _ => ?_
  have hj : idx_main_v14 (ix1 r) k = ix2 r k :=
    funext fun a => Fin.ext (by
      match a with
      | ⟨0, _⟩ => rfl
      | ⟨1, _⟩ => rfl)
  have e1 : idx_main_v5 (idx_main_v7 (ix2 r k)) = ix1 r := funext fun a => Fin.ext (by match a with | ⟨0, _⟩ => rfl)
  have e2 : idx_main_v6 (idx_main_v8 (ix2 r k)) = ix1 k := funext fun a => Fin.ext (by match a with | ⟨0, _⟩ => rfl)
  have e3 : idx_main_v0 (idx_main_v2 (ix2 r k)) = ix1 k := funext fun a => Fin.ext (by match a with | ⟨0, _⟩ => rfl)
  have e4 : idx_main_v1 (idx_main_v3 (ix2 r k)) = ix1 r := funext fun a => Fin.ext (by match a with | ⟨0, _⟩ => rfl)
  rw [hj, val_main_v13_apply, val_main_v11_apply, val_main_v10_apply, val_main_v9_apply, val_main_v7_apply, val_main_v5_apply,
    val_main_v8_apply, val_main_v6_apply, val_main_v12_apply, val_main_v4_apply, val_main_v2_apply, val_main_v0_apply,
    val_main_v3_apply, val_main_v1_apply, e1, e2, e3, e4]
  rfl

/-- The reference's sum of squares: the double sum of K(r,k) * K(r,k). -/
theorem squares_total (K : FVec Ideal S8192x8192 .f32) (i : S_.Idx) :
    val_main_v27 (F := Ideal) K i = ∑ r : Fin 8192, ∑ k : Fin 8192, K (ix2 r k) * K (ix2 r k) := by
  rw [val_main_v27_apply, val_main_cst_5_apply, zero_word, zero_add, sum_idx2]
  rfl

/-- The reference's sum of moduli: the double sum of |K(r,k)|. -/
theorem moduli_total (K : FVec Ideal S8192x8192 .f32) (i : S_.Idx) :
    val_main_v32 (F := Ideal) K i
      = ∑ r : Fin 8192, ∑ k : Fin 8192, FloatOps.absf (F := Ideal) (φ := .f32) (K (ix2 r k)) := by
  rw [val_main_v32_apply, val_main_cst_7_apply, zero_word, zero_add, sum_idx2]
  rfl

end Cert.ReferenceIdeal.RefReads

end
-- ==== Proof.ExtRealLaws.lean ====
/-
  Three laws on the extended reals that join the two programs.

  * The sine of a difference of two FINITE angles is the angle-subtraction formula
    sin (b - a) = sin b * cos a - cos b * sin a; at an infinite angle the sine is a junk
    value and the formula has no reason to hold, so finiteness is a hypothesis.
  * |x| * |x| = x * x for every extended real, the infinities included.
  * A sum over the first n + m naturals is the sum over the first n plus the sum over the
    next m; and a sum over the first n naturals of a function given on Fin n is the sum over Fin n.
-/
import Idealize.ShloMosaic.PureOps.Ideal
import Mathlib.Analysis.SpecialFunctions.Trigonometric.Basic
import Mathlib.Algebra.BigOperators.Fin

noncomputable section

namespace Cert.ExtRealLaws

open Idealize.ShloMosaic

/-- sin (b - a) = sin b * cos a - cos b * sin a, for real a and b, read on the extended reals. -/
theorem sin_sub_coe (a b : ℝ) :
    Ideal.sin ((b : EReal) - (a : EReal))
      = Ideal.sin (b : EReal) * Ideal.cos (a : EReal) - Ideal.cos (b : EReal) * Ideal.sin (a : EReal) := by
  rw [← EReal.coe_sub, Ideal.sin_coe, Ideal.sin_coe, Ideal.sin_coe, Ideal.cos_coe, Ideal.cos_coe,
    Real.sin_sub, EReal.coe_sub, EReal.coe_mul, EReal.coe_mul]

/-- |x| * |x| = x * x on the extended reals: for x ≥ 0 both factors are x, for x ≤ 0 both are -x
    and the two signs cancel. -/
theorem abs_mul_abs (x : EReal) : max x (-x) * max x (-x) = x * x := by
  rcases le_total 0 x with h | h
  · have h' : -x ≤ x := le_trans (EReal.neg_le.mpr (by simpa using h)) h
    rw [max_eq_left h']
  · have h' : x ≤ -x := le_trans h (EReal.le_neg_of_le_neg (by simpa using h))
    rw [max_eq_right h', neg_mul_neg]

/-- The same, spelled with the float operation. -/
theorem absf_mul_absf (x : Ideal .f32) :
    FloatOps.absf (F := Ideal) (φ := .f32) x * FloatOps.absf (F := Ideal) (φ := .f32) x = x * x :=
  abs_mul_abs x

end Cert.ExtRealLaws

end
-- ==== Proof.LibColumnCast.lean ====
/-
  A column laid back out as a vector: an [a, 1] array cast to [a] reads, at i, the column's entry
  in row i.  For any element type and any extent; the companion of the cast [a] → [a, 1].
-/
import Idealize.ShloMosaic.Lib.Pipeline.Value
import Idealize.ShloMosaic.Lib.ValueIdx

namespace Idealize.ShloMosaic.ValueIdx

open Idealize.ShloMosaic

variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Bridge.lean ====
/-
  The kernel's three results are the reference's.

  Coupling, row r.  The kernel's entry is the sum over all 8192 columns k of
      (K(r,k) * ((alive(r) * alive(k)) * dist(r,k))) * (sin p_k * cos p_r - cos p_k * sin p_r),
  the reference's the same sum with sin (p_k - p_r) as the last factor.  For FINITE phases the two
  last factors are equal (the angle-subtraction formula); nothing else is rearranged, since the
  kernel's 8 column tiles, taken in order, are the reference's one sum over the columns.

  Squares and moduli.  The kernel sums each row and then the 8192 row sums; the reference sums the
  whole matrix: both are the double sum over rows and columns, and |x| * |x| = x * x.

  The order parameter is the same expression of sin(phases) and cos(phases) on both sides, and the
  loss the same expression of the order parameter and the two sums.
-/
import proofs.«153661_j34110630265364_2_alg».proof.Proof.HostSide
import proofs.«153661_j34110630265364_2_alg».proof.Proof.RefReads
import proofs.«153661_j34110630265364_2_alg».proof.Proof.ExtRealLaws
import proofs.«153661_j34110630265364_2_alg».proof.Proof.LibColumnCast

set_option maxRecDepth 16384

noncomputable section

namespace Cert.Bridge

open Cert.KernelIdeal Cert.KernelIdeal.Gen Idealize.ShloMosaic Idealize.ShloMosaic.TcCoe Idealize.SL.Sem
open Idealize.ShloMosaic.ValueIdx Cert.TileSums
open Cert.KernelIdeal.RunningSums Cert.KernelIdeal.FinalArrays Cert.KernelIdeal.HostSide
open Cert.ReferenceIdeal.Read (val_main_v14 val_main_v24 val_main_v27 val_main_v32 val_main_v34)

variable (m : (ℓ : Loc nD τ sig) → Buf (Elt Ideal) ℓ)

/-- The kernel's coupling term of row r and column k, over the inputs. -/
theorem couplingAt_eq (c : Dev nD) (r k : Fin 8192) :
    couplingAt m c r k
      = (kmat m c (ix2 r k) * ((alive m c (ix1 r) * alive m c (ix1 k)) * dist m c (ix2 r k)))
          * (Ideal.sin (phases m c (ix1 k)) * Ideal.cos (phases m c (ix1 r))
              - Ideal.cos (phases m c (ix1 k)) * Ideal.sin (phases m c (ix1 r))) := by
  unfold couplingAt
  rw [arr0_eq, arr1_eq, arr2_eq, arr3_eq, arr4_eq, arr5_eq, arr6_eq, arr7_eq,
    shapeCast_a_a1_apply, shapeCast_a_a1_apply, shapeCast_a_a1_apply,
    shapeCast_a_1a_apply, shapeCast_a_1a_apply, shapeCast_a_1a_apply]
  rfl

/-- THE COUPLING: for finite phases the kernel's second result is the reference's. -/
theorem dtheta_eq (c : Dev nD) (hP : ∀ i, ∃ x : ℝ, phases m c i = (x : EReal)) :
    shapeCast S8192 (rowSums (couplingAt m c)) shapeCasts_S8192x1_S8192
      = val_main_v14 (F := Ideal) (phases m c) (alive m c) (dist m c) (kmat m c) := by
  funext i
  obtain ⟨r, rfl⟩ : ∃ r : Fin 8192, i = ix1 r := ⟨i 0, eq_ix1 i⟩
  rw [Cert.ReferenceIdeal.RefReads.coupling_row, shapeCast_a1_a_apply]
  show ∑ k ∈ Finset.range 8192, couplingAt m c (wrap r.val) (wrap k) = _
  rw [wrap_fin]
  refine (sum_range_all (couplingAt m c r)).trans ?_
  refine Finset.sum_congr rfl fun k _ => ?_
  rw [couplingAt_eq]
  obtain ⟨pk, hk⟩ := hP (ix1 k)
  obtain ⟨pr, hr⟩ := hP (ix1 r)
  rw [hk, hr, Cert.ExtRealLaws.sin_sub_coe]

/-- A total over an [8192, 1] array of whole-row sums is the double sum over rows and columns. -/
theorem totalOf_rowSums (f : Fin 8192 → Fin 8192 → EReal) (i : S_.Idx) :
    totalOf (rowSums f) i = ∑ r : Fin 8192, ∑ k : Fin 8192, f r k := by
  unfold totalOf
  simp only [Host.reduceAdd, Ideal.hostReduceAdd_def]
  rw [Ideal.hostReduceAdd_total reducesTo_S8192x1_S_d0_1 (fun b => b.elim0) _ _ i]
  rw [show (constant (F := Ideal) S_ .f32 0x00000000#32) (Shape.Idx.first h_S_) = (0 : EReal) from Ideal.ofBits_zero_f32,
    zero_add, sum_idx2]
  refine Finset.sum_congr rfl fun r _ => ?_
  rw [Fin.sum_univ_one]
  show ∑ k ∈ Finset.range 8192, f (wrap r.val) (wrap k) = _
  rw [wrap_fin]
  exact sum_range_all (f r)

/-- THE SQUARES: the kernel's sum of row sums of |K| * |K| is the reference's sum of K * K. -/
theorem squares_eq (c : Dev nD) :
    totalOf (rowSums (squareAt m c)) = val_main_v27 (F := Ideal) (kmat m c) := by
  funext i
  rw [totalOf_rowSums, Cert.ReferenceIdeal.RefReads.squares_total]
  refine Finset.sum_congr rfl fun r _ => Finset.sum_congr rfl fun k _ => ?_
  unfold squareAt
  rw [arr7_eq]
  exact Cert.ExtRealLaws.absf_mul_absf _

/-- THE MODULI: the kernel's sum of row sums of |K| is the reference's sum of |K|. -/
theorem moduli_eq (c : Dev nD) :
    totalOf (rowSums (modulusAt m c)) = val_main_v32 (F := Ideal) (kmat m c) := by
  funext i
  rw [totalOf_rowSums, Cert.ReferenceIdeal.RefReads.moduli_total]
  refine Finset.sum_congr rfl fun r _ => Finset.sum_congr rfl fun k _ => ?_
  unfold modulusAt
  rw [arr7_eq]

/-- THE ORDER PARAMETER: the same operations of sin(phases) and cos(phases) on both sides. -/
theorem orderParam_eq (c : Dev nD) :
    orderParam (Host.sin (phases m c)) (Host.cos (phases m c)) = val_main_v24 (F := Ideal) (phases m c) := rfl

/-- THE LOSS: the same function of the order parameter and the two sums on both sides. -/
theorem loss_eq (c : Dev nD) :
    lossOf (orderParam (Host.sin (phases m c)) (Host.cos (phases m c)))
        (totalOf (rowSums (squareAt m c))) (totalOf (rowSums (modulusAt m c)))
      = val_main_v34 (F := Ideal) (phases m c) (kmat m c) := by
  rw [squares_eq, moduli_eq, orderParam_eq]
  rfl

end Cert.Bridge

end
-- ==== Proof.FinitePhases.lean ====
/-
  The precondition says that every entry of every input has modulus below +infinity.  Of it only
  this is used: every entry of the phases is a real number (so that the sine of a difference of
  two phases obeys the angle-subtraction formula).
-/
import proofs.«153661_j34110630265364_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.FinitePhases

open Idealize.ShloMosaic Cert.Pre_finite_inputs

/-- The word 0x7F800000 denotes +infinity. -/
theorem inf_word : Ideal.ofBits .f32 0x7F800000#32 = ⊤ := by simp [Ideal.ofBits, Ideal.ieee]

/-- An extended real whose modulus compares below +infinity is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

instance : Subsingleton S_.Idx := ⟨fun a b => funext fun d => d.elim0⟩

/-- Under the precondition every phase is a real number. -/
theorem phases_real [Facts] (p a : FVec Ideal S8192 .f32) (d k : FVec Ideal S8192x8192 .f32)
    (h : fn (F := Ideal) p a d k = fun _ => 1#1) (i : S8192.Idx) : ∃ r : ℝ, p i = (r : EReal) := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  have h4 := Host.reduce_andi_all _ _ _ _ _ h3 i
  exact real_of_abs_lt (p i) h4

end Cert.FinitePhases

end
-- ==== Proof.lean ====
/-
  The kernel computes, from phases p, an alive mask a, a distance mask d and a coupling matrix K
  (8192 entries, resp. 8192 x 8192),

    R      = sqrt (mean (cos p)^2 + mean (sin p)^2)
    dtheta = the vector of row sums over k of (K(r,k) * ((a(r) * a(k)) * d(r,k))) * sin (p_k - p_r)
    loss   = (1 - R) + c * sqrt (sum of K * K) + c * (sum of |K|)

  The reference computes them as written.  The kernel computes sin p and cos p once, streams K and
  d through a grid of 8 x 8 tiles of 1024 x 1024, replaces sin (p_k - p_r) by
  sin p_k * cos p_r - cos p_k * sin p_r, and keeps three running row sums (the coupling, |K| * |K|,
  |K|) across the 8 column tiles of a row tile; the host then sums the last two over the rows.

  On the extended reals the two agree for finite phases: the angle-subtraction formula holds for
  real angles (this is where the precondition is used), a sum taken 1024 columns at a time is the
  sum, a sum of row sums is the sum over the matrix, and |x| * |x| = x * x.  The ideal pass rewrote
  nothing, so the idealization claim is trivial; the three frames are the programs' runs.
-/
import proofs.«153661_j34110630265364_2_alg».proof.Defs
import proofs.«153661_j34110630265364_2_alg».proof.Proof.Gen.Kernel
import proofs.«153661_j34110630265364_2_alg».proof.Proof.Gen.Kernel.Frame
import proofs.«153661_j34110630265364_2_alg».proof.Proof.Gen.KernelIdeal
import proofs.«153661_j34110630265364_2_alg».proof.Proof.Gen.KernelIdeal.Frame
import proofs.«153661_j34110630265364_2_alg».proof.Proof.Gen.ReferenceIdeal
import proofs.«153661_j34110630265364_2_alg».proof.Proof.Gen.ReferenceIdeal.Run
import proofs.«153661_j34110630265364_2_alg».proof.Proof.Gen.ReferenceIdeal.Read
import proofs.«153661_j34110630265364_2_alg».proof.Proof.Gen.Pre_finite_inputs
import proofs.«153661_j34110630265364_2_alg».proof.Proof.KernelRun
import proofs.«153661_j34110630265364_2_alg».proof.Proof.Bridge
import proofs.«153661_j34110630265364_2_alg».proof.Proof.FinitePhases
import Idealize.ShloMosaic.Adequacy
import Idealize.ShloMosaic.Init

set_option maxRecDepth 16384

noncomputable section

namespace Cert.Proof

open Idealize.ShloMosaic Idealize.SL.Sem
open Cert.KernelIdeal.HostSide (phases alive dist kmat)
open Cert.ReferenceIdeal.Read (val_main_v14 val_main_v24 val_main_v34 val_main_v14_eq val_main_v24_eq val_main_v34_eq)

theorem frame_k : Cert.frame_Kernel := fun m ρ _ => Cert.Kernel.Gen.frame m ρ

theorem frame_ki : Cert.frame_KernelIdeal := fun m ρ _ => Cert.KernelIdeal.Gen.frame m ρ

/-- The reference has no region: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end with the reference's three stages of the (agreeing) inputs: the kernel by the bridge,
    under finite phases; the reference by its own run. -/
theorem algebraic : Cert.algebraic_KernelIdeal_ReferenceIdeal := by
  intro m ρ m' ρ' hpre hagree
  refine ⟨fun c => val_main_v24 (F := Ideal) (phases m c),
    fun c => val_main_v14 (F := Ideal) (phases m c) (alive m c) (dist m c) (kmat m c),
    fun c => val_main_v34 (F := Ideal) (phases m c) (kmat m c), ?_, ?_⟩
  · refine (θ_run Cert.KernelIdeal.defs _ _).mono (fun _ h c => ?_) (Cert.KernelIdeal.KernelRun.run m ρ)
    have hP : ∀ i, ∃ x : ℝ, phases m c i = (x : EReal) :=
      fun i => Cert.FinitePhases.phases_real _ _ _ _ (hpre c) i
    exact ⟨(h c).1.trans (Cert.Bridge.orderParam_eq m c), (h c).2.1.trans (Cert.Bridge.dtheta_eq m c hP),
      (h c).2.2.1.trans (Cert.Bridge.loss_eq m c), (h c).2.2.2⟩
  · refine (θ_run Cert.ReferenceIdeal.defs _ _).mono (fun _ h c => ?_) (Cert.ReferenceIdeal.Value.run (F := Ideal) m' ρ')
    refine ⟨(h c).1.trans ?_, (h c).2.1.trans ?_, (h c).2.2.1.trans ?_, (h c).2.2.2⟩
    · rw [(hagree c).1]
      exact val_main_v24_eq _
    · rw [(hagree c).1, (hagree c).2.1, (hagree c).2.2.1, (hagree c).2.2.2]
      exact val_main_v14_eq _ _ _ _
    · rw [(hagree c).1, (hagree c).2.2.2]
      exact val_main_v34_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
